-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_v13 : IVec S_ 1) (main_v15 : IVec S1250000 1) (main_c_5 : IVec S_ 1) : IVec S_ 1 :=
  let main_v16 : IVec S_ 1 := (fun x v => Host.reduce IntOp.andi x v reducesTo_S1250000_S_d0 h_S_) main_v15 main_c_5
  let main_v17 : IVec S_ 1 := andi main_v13 main_v16
  main_v17

def fn {F : FTy → Type} [FloatOps F] (main_arg0 : FVec F S100000x64 .f32) (main_arg1 : IVec S1250000 32) (main_arg2 : IVec S1250000 32) (main_arg3 : FVec F S64x128 .f32) (main_arg4 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1250000 32 := broadcastInDim S1250000 ![] bcast_S_S1250000 main_c_4
  let main_v15 : IVec S1250000 1 := cmpi .sge main_arg2 main_v14
  let main_c_5 : IVec S_ 1 := constantI S_ 1 1#1
  fn_part1 (F := F) main_v13 main_v15 main_c_5
-- ==== Kernel.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S10000x64 : Shape := ⟨2, ![10000, 64]⟩
abbrev S10000x128 : Shape := ⟨2, ![10000, 128]⟩
abbrev S1x128 : Shape := ⟨2, ![1, 128]⟩

abbrev nBuf : Space → Nat
  | .hbm => 27
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x128, .f32⟩
  | .hbm, ⟨4, _⟩ => ⟨S128, .f32⟩
  | .hbm, ⟨5, _⟩ => ⟨S_, .f32⟩
  | .hbm, ⟨6, _⟩ => ⟨S100000x64, .f32⟩
  | .hbm, ⟨7, _⟩ => ⟨S100000x64, .f32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .i32⟩
  | .hbm, ⟨18, _⟩ => ⟨S1250000, .i32⟩
  | .hbm, ⟨19, _⟩ => ⟨S1250000, .i1⟩
  | .hbm, ⟨20, _⟩ => ⟨S_, .i32⟩
  | .hbm, ⟨21, _⟩ => ⟨S1250000, .i32⟩
  | .hbm, ⟨22, _⟩ => ⟨S1250000, .i32⟩
  | .hbm, ⟨23, _⟩ => ⟨S1250000, .i32⟩
  | .hbm, ⟨24, _⟩ => ⟨S1250000x1, .i32⟩
  | .hbm, ⟨25, _⟩ => ⟨S100000x64, .f32⟩
  | .hbm, ⟨26, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x64 : S_.BroadcastsInDim S100000x64 (![] : Fin 0 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_v15) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x128, .f32⟩
  | .hbm, ⟨4, _⟩ => ⟨S128, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S100000x64, .f32⟩
  | .hbm, ⟨16, _⟩ => ⟨S1250000x1, .i32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.KernelBody.lean ====
/-
  What the kernel body stores for one block of 10000 rows, read entry by entry at exact values: the block of `h`
  and the weights are narrowed to bf16 (the identity on exact values), multiplied into a zero accumulator, the bias
  vector is laid out as a 1 × 128 row and spread over the rows, and the sum is clamped below at zero. So entry
  (p, q) of the stored block is max (∑ₖ h(p,k) · W(k,q) + b(q)) 0.
-/
import proofs.«166384_j40346922779435_2_alg».proof.Proof.Gen.KernelIdeal.Skeleton
import proofs.«166384_j40346922779435_2_alg».proof.Proof.LibMatmul
import proofs.«166384_j40346922779435_2_alg».proof.Proof.LibVecRow
import proofs.«166384_j40346922779435_2_alg».proof.Proof.LibRowBroadcast

noncomputable section

namespace Cert.KernelIdeal.Body

open Cert.KernelIdeal Cert.KernelIdeal.Gen Idealize.ShloMosaic Idealize.ShloMosaic.ValueIdx

/-! The block product's dimension numbers: rows of the left operand come from the result's rows, its columns from the
    contraction position; rows of the right operand from the contraction position, its columns from the result's columns. -/

theorem lhs_row (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

theorem lhs_col (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

theorem rhs_row (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

theorem rhs_col (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- Entry (p, q) of the block the body stores. -/
theorem pay_apply (v0 : Vec Ideal S10000x64 .f32) (v3 : Vec Ideal S64x128 .f32) (v6 : Vec Ideal S128 .f32)
    (p : Fin 10000) (q : Fin 128) :
    k0_pay1 (F := Ideal) v0 v3 v6 (ix2 p q)
      = max ((∑ k : Fin 64, v0 (ix2 p k) * v3 (ix2 k q)) + v6 (ix1 q)) (Ideal.ofBits .f32 0x00000000#32) := by
  unfold k0_pay1
  show max (matmul dot_S10000x64_S64x128_S10000x128_1_0_0_1_n_n none _ _ _ (ix2 p q)
      + broadcastTo S10000x128 _ _ (ix2 p q)) (Ideal.ofBits .f32 0x00000000#32) = _
  rw [Cert.PlainDot.matmul_zero_apply dot_S10000x64_S64x128_S10000x128_1_0_0_1_n_n none rfl rfl lhs_row lhs_col rhs_row rhs_col,
    Cert.RowBroadcast.broadcastTo_1b_ab_apply, Cert.VecRow.row_of_vec_apply, shapeCast_self]
  rfl

end Cert.KernelIdeal.Body

end
-- ==== Proof.DenseRelu.lean ====
/-
  The layer both programs end in, as one function of three arrays at exact values: for a 100000 × 64 matrix `h`,
  a 64 × 128 matrix `W` and a vector `b` of 128 entries, entry (p, q) of relu(h · W + b) is
  max (∑ₖ h(p,k) · W(k,q) + b(q)) 0. The zero is kept as the float word both programs print for it.
-/
import Idealize.ShloMosaic.PureOps.Ideal
import Idealize.ShloMosaic.Lib.ValueIdx

noncomputable section

namespace Cert.DenseRelu

open Idealize.ShloMosaic Idealize.ShloMosaic.ValueIdx

/-- Entry (p, q) of relu(h · W + b). -/
def entry (h : (⟨2, ![100000, 64]⟩ : Shape).Idx → EReal) (W : (⟨2, ![64, 128]⟩ : Shape).Idx → EReal)
    (b : (⟨1, ![128]⟩ : Shape).Idx → EReal) (p : Fin 100000) (q : Fin 128) : EReal :=
  max ((∑ k : Fin 64, h (ix2 p k) * W (ix2 k q)) + b (ix1 q)) (Ideal.ofBits .f32 0x00000000#32)

/-- The whole array relu(h · W + b). -/
def out (h : (⟨2, ![100000, 64]⟩ : Shape).Idx → EReal) (W : (⟨2, ![64, 128]⟩ : Shape).Idx → EReal)
    (b : (⟨1, ![128]⟩ : Shape).Idx → EReal) : (⟨2, ![100000, 128]⟩ : Shape).Idx → EReal :=
  fun i => entry h W b (i 0) (i 1)

theorem out_apply (h : (⟨2, ![100000, 64]⟩ : Shape).Idx → EReal) (W : (⟨2, ![64, 128]⟩ : Shape).Idx → EReal)
    (b : (⟨1, ![128]⟩ : Shape).Idx → EReal) (p : Fin 100000) (q : Fin 128) :
    out h W b (ix2 p q) = entry h W b p q := rfl

end Cert.DenseRelu

end
-- ==== Proof.KernelWhole.lean ====
/-
  From the blocks to the whole result array. The grid has ten points; point t works on rows 10000·t … 10000·t + 9999:
  it reads that block of rows of `h` (all 64 columns), the whole of the weights and the whole bias, and writes that
  block of rows of the result (all 128 columns). Each written block is the restriction of ONE function of the
  arrays as the region finds them — relu(h · W + b) — and the ten blocks cover the result array, so after the run
  the array is that function.
-/
import proofs.«166384_j40346922779435_2_alg».proof.Proof.Gen.KernelIdeal.Value
import proofs.«166384_j40346922779435_2_alg».proof.Proof.KernelBody
import proofs.«166384_j40346922779435_2_alg».proof.Proof.DenseRelu

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The index maps over the ten points: the blocks of `h` and of the result are numbered by the point along the rows
    and are the only block along the columns; the weights and the bias have one block. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every block of rows of the result is some point's. -/
theorem block_onto : ∀ q0 : Fin 10, ∃ t : Fin cfg0.N, win0_3.index t = ![q0.val, 0] :=
  (by decide +kernel : ∀ q0 : Fin 10, ∃ t : Fin grid0.N, win0_3.index t = ![q0.val, 0])

/-- One entry of a stored block is the entry of relu(h · W + b) at the array index it is written to, given where the
    loaded blocks come from: row `p` of the block of `h` is row `i 0` of `h`, the other two blocks are the whole arrays. -/
theorem block_entry (Vh : S100000x64.Idx → EReal) (VW : S64x128.Idx → EReal) (Vb : S128.Idx → EReal)
    (x0 : Vec Ideal S10000x64 .f32) (x1 : Vec Ideal S64x128 .f32) (x2 : Vec Ideal S128 .f32)
    (p : Fin 10000) (q : Fin 128) (r : Fin 100000)
    (h0 : ∀ k : Fin 64, x0 (ix2 p k) = Vh (ix2 r k)) (h1 : x1 = VW) (h2 : x2 = Vb) :
    k0_pay1 (F := Ideal) x0 x1 x2 (ix2 p q) = Cert.DenseRelu.out Vh VW Vb (ix2 r q) := by
  rw [Cert.KernelIdeal.Body.pay_apply, Cert.DenseRelu.out_apply]
  unfold Cert.DenseRelu.entry
  subst h1 h2
  simp only [h0]

/-- Row `p` of the block of `h` at point `t` is row 10000·t + p of `h` as the region finds it. -/
theorem hblock_apply (c : Dev nD) (t : Fin cfg0.N) (p : Fin 10000) (k : Fin 64) (r : Fin 100000)
    (hr : r.val = t.val * 10000 + p.val) :
    (iblk m c 0 t : Vec Ideal S10000x64 .f32) (ix2 p k) = (V m c main_v15 : S100000x64.Idx → EReal) (ix2 r k) := by
  obtain ⟨e0, e1, -⟩ := block_numbers t
  unfold iblk
  rw [View.read_apply]
  show V m c main_v15 _ = V m c main_v15 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The block of the weights at any point is the whole array. -/
theorem wblock_eq (c : Dev nD) (t : Fin cfg0.N) :
    (iblk m c 1 t : Vec Ideal S64x128 .f32) = (V m c main_arg3 : S64x128.Idx → EReal) := by
  obtain ⟨-, -, e2, e3, -⟩ := block_numbers t
  funext y
  unfold iblk
  rw [View.read_apply]
  show V m c main_arg3 _ = V m c main_arg3 y
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 128 + 1 * (y 1).val = (y 1).val; rw [e3]; omega

/-- The block of the bias at any point is the whole vector. -/
theorem bblock_eq (c : Dev nD) (t : Fin cfg0.N) :
    (iblk m c 2 t : Vec Ideal S128 .f32) = (V m c main_arg4 : S128.Idx → EReal) := by
  obtain ⟨-, -, -, -, e4, -⟩ := block_numbers t
  funext y
  unfold iblk
  rw [View.read_apply]
  show V m c main_arg4 _ = V m c main_arg4 y
  congr 1
  funext a
  apply Fin.ext
  match a with
  | ⟨0, _⟩ => show win0_2.index t (0 : Fin 1) * 128 + 1 * (y 0).val = (y 0).val; rw [e4]; omega

/-- What point `t` writes back is block `t` of relu(h · W + b) of the arrays as the region finds them. -/
theorem flushed_eq (c : Dev nD) (t : Fin cfg0.N) :
    (dats m 0 c).flushed 3 t = ((cfg0.win 3).blk t).view.read (Elt Ideal)
      (Cert.DenseRelu.out (V m c main_v15) (V m c main_arg3) (V m c main_arg4)) := by
  rw [Value.flushed3]
  unfold out0_3
  rw [View.canon_unit_zero zero2]
  simp only [View.ld_unit_zero (S := S10000x64) zero2, View.ld_unit_zero (S := S64x128) zero2, View.ld_unit_zero (S := S128) zero1]
  obtain ⟨-, -, -, -, -, e5, e6⟩ := block_numbers t
  funext j
  obtain ⟨p, q, rfl⟩ : ∃ (p : Fin 10000) (q : Fin 128), j = ix2 p q := ⟨j 0, j 1, eq_ix2 j⟩
  have hN : t.val < 10 := lt_of_lt_of_eq t.isLt (N_0 : cfg0.N = 10)
  have hp := p.isLt
  let r : Fin 100000 := ⟨t.val * 10000 + p.val, by omega⟩
  have hemb : ((cfg0.win 3).blk t).view.emb (ix2 p q) = ix2 r q := by
    funext a
    apply Fin.ext
    match a with
    | ⟨0, _⟩ => show win0_3.index t (0 : Fin 2) * 10000 + 1 * p.val = t.val * 10000 + p.val; rw [e5]; omega
    | ⟨1, _⟩ => show win0_3.index t (1 : Fin 2) * 128 + 1 * q.val = q.val; rw [e6]; omega
  show k0_pay1 (iblk m c 0 t) (iblk m c 1 t) (iblk m c 2 t) (ix2 p q)
    = Cert.DenseRelu.out (V m c main_v15) (V m c main_arg3) (V m c main_arg4) (((cfg0.win 3).blk t).view.emb (ix2 p q))
  rw [hemb]
  exact block_entry (V m c main_v15) (V m c main_arg3) (V m c main_arg4) (iblk m c 0 t) (iblk m c 1 t) (iblk m c 2 t) p q r
    (fun k => hblock_apply m c t p k r rfl) (wblock_eq m c t) (bblock_eq m c t)

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v16).slice (win0_3.rect t)).set ↔ _
  rw [View.set_slice_whole, Rect.mem_set_unit]
  exact Iff.rfl

/-- Every index of the result array lies in the block of the point that owns its row: row r belongs to point r / 10000. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the run is relu(h · W + b) of the arrays as the region finds them. -/
theorem final (c : Dev nD) : (dats m 0 c).arrAt 3 cfg0.N
    = Cert.DenseRelu.out (V m c main_v15) (V m c main_arg3) (V m c main_arg4) :=
  (dats m 0 c).arrAt_eq_of_cover 3 _ (fun t _ => flushed_eq m c t) covered

end Cert.KernelIdeal.Whole

end
-- ==== Proof.KernelPrefix.lean ====
/-
  The array the kernel region finds as its first operand. Before the region the program computes, on the host,
  the self term 1 · x, the destination row numbers with negative ones wrapped around (d < 0 ↦ d + 100000), the source
  row numbers wrapped the same way, the source rows gathered from x, and the scatter-add of those rows into the self
  term by the wrapped destination numbers. `aggregated` is that last array as a function of the three arguments it
  depends on, and the region's first operand is `aggregated` of the launch contents.
-/
import proofs.«166384_j40346922779435_2_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen
open Idealize.ShloMosaic Idealize.ShloMosaic.TcCoe Idealize.SL.Sem Idealize.ShloMosaic.StableHlo

/-- Row numbers with the negative ones wrapped around: `d < 0 ↦ d + 100000`. -/
def wrapped (d : (⟨S1250000, .i32⟩ : BufTy).Contents (Elt Ideal)) : (⟨S1250000, .i32⟩ : BufTy).Contents (Elt Ideal) :=
  select (cmpi .slt d (broadcastInDim S1250000 ![] bcast_S_S1250000 (constantI S_ 32 0#32)))
    (addi d (broadcastInDim S1250000 ![] bcast_S_S1250000 (constantI S_ 32 100000#32))) d

/-- The self term plus the rows of `x` named by `src` added into the rows named by `dst` (both wrapped). -/
def aggregated (x : (⟨S100000x64, .f32⟩ : BufTy).Contents (Elt Ideal)) (src dst : (⟨S1250000, .i32⟩ : BufTy).Contents (Elt Ideal)) :
    (⟨S100000x64, .f32⟩ : BufTy).Contents (Elt Ideal) :=
  Host.scatterAdd (F := Ideal) scatter_S100000x64_S1250000x1_S1250000x64_1_0_0_1
    (mulf (broadcastInDim S100000x64 ![] bcast_S_S100000x64 (constant (F := Ideal) S_ .f32 0x3F800000#32)) x)
    (broadcastInDim S1250000x1 ![0] bcast_S1250000_S1250000x1_0 (wrapped dst))
    (Host.gather gather_S100000x64_S1250000x1_S1250000x64_1_0_n_n_0_1_164 x
      (broadcastInDim S1250000x1 ![0] bcast_S1250000_S1250000x1_0 (wrapped src)))

variable (m : (ℓ : Loc nD τ sig) → Buf (Elt Ideal) ℓ)

set_option maxHeartbeats 2000000 in
/-- The region's first operand, as the region finds it, is `aggregated` of the launch contents of the arguments. -/
theorem V_main_v15 (c : Dev nD) :
    (V m c main_v15 : S100000x64.Idx → EReal)
      = aggregated (m ((c : Thread nD τ).loc main_arg0)) (m ((c : Thread nD τ).loc main_arg1)) (m ((c : Thread nD τ).loc main_arg2)) := by
  dsimp only [Gen.V, Gen.hostOps0]
  after_results
  rfl

end Cert.KernelIdeal.Prefix

end
-- ==== Proof.KernelRun.lean ====
/-
  The kernel program's run, read: every execution ends with the result array at relu(h · W + b), where `h` is the
  array the host part builds before the region (`aggregated` of x, src and dst) and W, b are the arguments as
  launched; the arguments end unchanged.
-/
import proofs.«166384_j40346922779435_2_alg».proof.Proof.KernelWhole
import proofs.«166384_j40346922779435_2_alg».proof.Proof.KernelPrefix

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array as a function of the launch contents of the five arguments. -/
def result (c : Dev nD) : Buf (Elt Ideal) ((c : Thread nD τ).loc main_v16) :=
  Cert.DenseRelu.out
    (Cert.KernelIdeal.Prefix.aggregated (m ((c : Thread nD τ).loc main_arg0)) (m ((c : Thread nD τ).loc main_arg1)) (m ((c : Thread nD τ).loc main_arg2)))
    (m ((c : Thread nD τ).loc main_arg3)) (m ((c : Thread nD τ).loc main_arg4))

/-- After the run the result array is `result`. -/
theorem final_eq (c : Dev nD) : (dats m 0 c).arrAt 3 cfg0.N = result m c := by
  rw [Cert.KernelIdeal.Whole.final, Cert.KernelIdeal.Prefix.V_main_v15, V_main_arg3, V_main_arg4]
  rfl

theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩)
    (Cert.KernelIdeal.Value.run_blocks m ρ)

end Cert.KernelIdeal.Run

end
-- ==== Proof.RefValue.lean ====
/-
  The reference's result, read entry by entry: its last stage is relu(h · W + b) of the array `h` it has built
  before the product (the self term plus the aggregated rows), the weights and the bias. The product is the host's
  contraction of the second axis of `h` with the first of `W`, the bias a vector spread over the rows, the relu a
  maximum with a zero array.
-/
import proofs.«166384_j40346922779435_2_alg».proof.Proof.Gen.ReferenceIdeal.Read
import proofs.«166384_j40346922779435_2_alg».proof.Proof.DenseRelu

noncomputable section

namespace Cert.ReferenceIdeal.RefValue

open Cert.ReferenceIdeal Cert.ReferenceIdeal.Gen Cert.ReferenceIdeal.Read
open Idealize.ShloMosaic Idealize.ShloMosaic.ValueIdx

/-- The reference's result is relu(h · W + b) with `h` its stage before the product. -/
theorem result_eq (x0 : (⟨S100000x64, .f32⟩ : BufTy).Contents (Elt Ideal)) (x1 x2 : (⟨S1250000, .i32⟩ : BufTy).Contents (Elt Ideal))
    (x3 : (⟨S64x128, .f32⟩ : BufTy).Contents (Elt Ideal)) (x4 : (⟨S128, .f32⟩ : BufTy).Contents (Elt Ideal)) :
    val_main_v17 (F := Ideal) x0 x1 x2 x3 x4 = Cert.DenseRelu.out (val_main_v12 (F := Ideal) x0 x1 x2) x3 x4 := by
  funext i
  obtain ⟨p, q, rfl⟩ : ∃ (p : Fin 100000) (q : Fin 128), i = ix2 p q := ⟨i 0, i 1, eq_ix2 i⟩
  have el : ∀ k : Fin 64, lidx_main_v13 (ix2 p q) k = ix2 p k := fun k =>
    funext fun a => Fin.ext (by match a with | ⟨0, _⟩ => rfl | ⟨1, _⟩ => rfl)
  have er : ∀ k : Fin 64, ridx_main_v13 (ix2 p q) k = ix2 k q := fun k =>
    funext fun a => Fin.ext (by match a with | ⟨0, _⟩ => rfl | ⟨1, _⟩ => rfl)
  have eb : idx_main_v14 (idx_main_v15 (ix2 p q)) = ix1 q :=
    funext fun a => Fin.ext (by match a with | ⟨0, _⟩ => rfl)
  rw [val_main_v17_apply, val_main_v16_apply, val_main_v13_apply, val_main_v15_apply, val_main_v14_apply,
    val_main_call0_v0_apply, val_main_call0_cst_apply, Cert.DenseRelu.out_apply]
  simp only [el, er, eb]
  rfl

end Cert.ReferenceIdeal.RefValue

end
-- ==== Proof.LibScatterInit.lean ====
/-
  A scatter-add into an initial array, at exact values, is the initial array plus the scatter-add of the same
  updates into an array of zeros: each entry is its initial value plus the sum of the updates that land on it,
  and a zero added in front of that sum changes nothing. Only the unit law of addition on the extended reals is
  used, so no entry has to be finite.
-/
import Idealize.ShloMosaic.PureOps.Ideal.Laws

noncomputable section

namespace Cert.ScatterInit

open Idealize.ShloMosaic

/-- `scatterAdd z idx u = z + scatterAdd zero idx u`, entry by entry, for any array `zero` whose entries are all 0;
    whatever the dimension numbers, the indices and the updates are. -/
theorem scatterAdd_init {s si su : Shape} {w : ℕ} {φ : FTy} (d : ScatterDims s si su)
    (z zero : s.Idx → EReal) (hzero : ∀ j, zero j = 0) (idx : IVec si w) (u : su.Idx → EReal) :
    Host.scatterAdd (F := Ideal) (φ := φ) d z idx u
      = addf (F := Ideal) (φ := φ) z (Host.scatterAdd (F := Ideal) (φ := φ) d zero idx u) := by
  funext j
  show Ideal.hostScatterAdd d z idx u j = z j + Ideal.hostScatterAdd d zero idx u j
  unfold Ideal.hostScatterAdd
  rw [hzero j, zero_add]

end Cert.ScatterInit

end
-- ==== Proof.LibRowsByIndex.lean ====
/-
  Rows taken and rows added by an array of row numbers, read at an index.

  A gather that takes whole rows of an `N × C` matrix (or entries of an `N` vector) by an `E × 1` array of row
  numbers reads, at row `e`, the row whose number is entry `e` of the array, read as a signed integer and
  clamped into `[0, N − 1]`.  A scatter that adds the rows of an `E × C` matrix into an `N × C` matrix by
  such an array sends row `e` to the row whose number is entry `e`, read signed and NOT clamped: a row whose
  number is out of range is dropped.  So an update that lands on row `p` has a row number that is `p` as an
  integer, and in particular is not negative.

  At exact values the scatter-add is, at each entry, the entry plus the sum of the updates that land
  there.  A factor that is finite and not negative may be moved across that sum; this is what lets a per-row
  scale be applied either to every update that lands on the row or once to the row's sum.
-/
import Idealize.ShloMosaic.Lib.ValueIdx
import Idealize.ShloMosaic.PureOps.Ideal.Laws

noncomputable section

open scoped BigOperators

namespace Cert.RowsByIndex

open Idealize.ShloMosaic Idealize.ShloMosaic.ValueIdx

variable {α : Type}

/-- The row a start index names in a gather: the word read as a signed integer, clamped into `[0, N − 1]`. -/
def clampRow (N : ℕ) (hN : 0 < N) {w : ℕ} (b : BitVec w) : Fin N := ⟨min b.toInt.toNat (N - 1), by omega⟩

/-- A word whose signed reading is the row number `p` names row `p`. -/
theorem clampRow_of_toInt {N : ℕ} (hN : 0 < N) {w : ℕ} (b : BitVec w) (p : Fin N) (h : b.toInt = (p.val : ℤ)) :
    clampRow N hN b = p := by
  refine Fin.ext ?_
  show min b.toInt.toNat (N - 1) = p.val
  have := p.isLt
  rw [h]; simp only [Int.toNat_natCast]; omega

/-- A row number that is not negative is left alone by the wrap-around of negative row numbers
    (`select (x < 0) (x + N) x`). -/
theorem keep_nonneg (x y : BitVec 32) (h : 0 ≤ x.toInt) : Scalar.select (IntOp.cmpi .slt x 0#32) y x = x := by
  unfold Scalar.select IntOp.cmpi
  have hs : x.slt 0#32 = false := by
    rw [BitVec.slt_eq_decide]
    simpa using h
  simp [hs]

/-! ## Whole rows of a matrix taken by row numbers -/

/-- The dimension numbers of `x[idx]` for a matrix `x : [N, C]` and row numbers `idx : [E, 1]`. -/
abbrev rowsDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the rows taken is entry `c` of the row that entry `e` of the row numbers names. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e (0 : Fin 1)))) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap from (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## Entries of a vector taken by row numbers -/

/-- The dimension numbers of `x[idx]` for a vector `x : [N]` and row numbers `idx : [E, 1]`. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the entries taken is the vector's entry that entry `e` of the row numbers names. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e (0 : Fin 1))))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows added into a matrix by row numbers -/

/-- The dimension numbers of `x.at[idx].add(u)` for `x : [N, C]`, row numbers `idx : [E, 1]`, rows `u : [E, C]`. -/
abbrev addRowsDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window of update `(e, c)` starts, along the rows, at the signed reading of entry `e` of the row numbers. -/
theorem addRows_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e c) ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Along the rows an update has no window coordinate: the row axis is inserted. -/
theorem addRows_window {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 0 = 0 := by
  unfold ScatterDims.window
  rw [dif_neg (show ¬ (0 : Fin 2) ∈ (addRowsDims N E C wf).sKept from
    (by decide : (0 : Fin 2) ∉ (List.finRange 2).filter (· ∉ ([0] : List (Fin 2)))))]

/-- An update that lands on row `i 0` has, as its row number read signed, exactly `i 0`. -/
theorem addRows_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e (0 : Fin 1))).toInt = ((i 0).val : ℤ) := by
  unfold ScatterDims.resultIdx? at h
  split at h
  · rename_i hall
    have h0 := hall 0
    have hv : ((addRowsDims N E C wf).start (ix2 e c) idx 0 + ((addRowsDims N E C wf).window (ix2 e c) 0 : ℤ)).toNat = (i 0).val :=
      congrArg Fin.val (congrFun (Option.some.inj h) 0)
    rw [addRows_start, addRows_window] at hv h0
    simp only [Nat.cast_zero, add_zero] at hv h0
    omega
  · exact absurd h (by simp)

/-! ## A finite, non-negative factor across a sum of extended reals -/

/-- A factor that is not negative and not `+∞` distributes over a finite sum of extended reals. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- Scatter-adding into zero and then scaling an entry by a finite non-negative factor is scatter-adding, into
    zero, updates each of which carries that factor whenever it lands on the entry. -/
theorem scatterAdd_mul_right {s si su : Shape} {φ : FTy} (d : ScatterDims s si su) {w : ℕ} (idx : IVec si w)
    (u v : su.Idx → EReal) (z z' : s.Idx → EReal) (i : s.Idx) (hz : z i = 0) (hz' : z' i = 0)
    {D : EReal} (h0 : 0 ≤ D) (ht : D ≠ ⊤)
    (huv : ∀ j, d.resultIdx? j idx = some i → v j = u j * D) :
    Host.scatterAdd (F := Ideal) (φ := φ) d z idx u i * D = Host.scatterAdd (F := Ideal) (φ := φ) d z' idx v i := by
  show Ideal.hostScatterAdd d z idx u i * D = Ideal.hostScatterAdd d z' idx v i
  unfold Ideal.hostScatterAdd
  rw [hz, hz', zero_add, zero_add, sum_mul_of_nonneg_ne_top _ _ h0 ht]
  exact Finset.sum_congr rfl fun j hj => (huv j (Finset.mem_filter.mp hj).2).symm

/-- Scatter-adding, into equal entries, updates that agree wherever they land on the entry gives equal entries. -/
theorem scatterAdd_congr {s si su : Shape} {φ : FTy} (d : ScatterDims s si su) {w : ℕ} (idx : IVec si w)
    (u v : su.Idx → EReal) (z z' : s.Idx → EReal) (i : s.Idx) (hz : z i = z' i)
    (huv : ∀ j, d.resultIdx? j idx = some i → u j = v j) :
    Host.scatterAdd (F := Ideal) (φ := φ) d z idx u i = Host.scatterAdd (F := Ideal) (φ := φ) d z' idx v i := by
  show Ideal.hostScatterAdd d z idx u i = Ideal.hostScatterAdd d z' idx v i
  unfold Ideal.hostScatterAdd
  rw [hz]
  exact congrArg _ (Finset.sum_congr rfl fun j hj => huv j (Finset.mem_filter.mp hj).2)

/-! ## The inverse square root of a degree, guarded at zero, is finite and not negative -/

/-- `where(x > 0, rsqrt x, 0)` is a non-negative real, whatever extended real `x` is. -/
theorem guarded_rsqrt_finite (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  unfold Scalar.select Ideal.cmp
  by_cases hx : (0 : EReal) < x
  · simp only [hx, decide_true, BitVec.ofBool_true, if_true]
    induction x using EReal.rec with
    | bot => exact absurd hx (by simp)
    | top =>
      rw [show Ideal.rsqrt (⊤ : EReal) = 0 from rfl]
      exact ⟨le_refl _, EReal.zero_ne_top⟩
    | coe r =>
      have hr : 0 < r := by exact_mod_cast hx
      rw [show Ideal.rsqrt (r : EReal) = if r < 0 then ⊥ else if r = 0 then ⊤ else (((Real.sqrt r)⁻¹ : ℝ) : EReal) from rfl,
        if_neg (not_lt.mpr hr.le), if_neg hr.ne']
      exact ⟨by exact_mod_cast inv_nonneg.mpr (Real.sqrt_nonneg r), EReal.coe_ne_top _⟩
  · simp only [hx, decide_false, BitVec.ofBool_false]
    simp

end Cert.RowsByIndex

end
-- ==== Proof.Aggregate.lean ====
/-
  The two programs build the array `h` that enters the product differently. The kernel's program adds the gathered
  source rows INTO the self term 1 · x, by destination row numbers with the negative ones wrapped around; the
  reference adds them into zeros, by the destination row numbers as given, and adds the self term afterwards.
  When no destination row number is negative the wrap-around does nothing, and adding rows into an initial array is
  the initial array plus the same rows added into zeros; so the two arrays are equal. (A negative destination row
  number is where they differ: wrapped it lands on a row, unwrapped it is dropped.)
-/
import proofs.«166384_j40346922779435_2_alg».proof.Proof.KernelPrefix
import proofs.«166384_j40346922779435_2_alg».proof.Proof.Gen.ReferenceIdeal.Read
import proofs.«166384_j40346922779435_2_alg».proof.Proof.LibScatterInit
import proofs.«166384_j40346922779435_2_alg».proof.Proof.LibRowsByIndex

noncomputable section

namespace Cert.Aggregate

open Idealize.ShloMosaic
open Cert.ReferenceIdeal.Read

/-- Row numbers none of which is negative are left alone by the wrap-around. -/
theorem wrapped_of_nonneg (d : (⟨Cert.KernelIdeal.S1250000, .i32⟩ : BufTy).Contents (Elt Ideal)) (hd : ∀ e, 0 ≤ (d e).toInt) :
    Cert.KernelIdeal.Prefix.wrapped d = d :=
  funext fun e => Cert.RowsByIndex.keep_nonneg (d e) _ (hd e)

/-- With no negative destination row number, the kernel program's array before the product is the reference's. -/
theorem aggregated_eq (x : (⟨Cert.KernelIdeal.S100000x64, .f32⟩ : BufTy).Contents (Elt Ideal))
    (src dst : (⟨Cert.KernelIdeal.S1250000, .i32⟩ : BufTy).Contents (Elt Ideal)) (hd : ∀ e, 0 ≤ (dst e).toInt) :
    Cert.KernelIdeal.Prefix.aggregated x src dst = val_main_v12 (F := Ideal) x src dst := by
  unfold Cert.KernelIdeal.Prefix.aggregated
  rw [wrapped_of_nonneg dst hd]
  unfold val_main_v12 val_main_v9
  refine Cert.ScatterInit.scatterAdd_init _ _ _ ?_ _ _
  intro j
  exact Ideal.ofBits_zero_f32

end Cert.Aggregate

end
-- ==== Proof.DstNonneg.lean ====
/-
  The precondition read back at the destination row numbers. Its last conjunct is `all (dst ≥ 0)`: a reduction by
  `and` of the signed comparisons `dst[e] ≥ 0`, which is 1 only if every comparison is, so every destination row
  number is a non-negative integer.
-/
import proofs.«166384_j40346922779435_2_alg».proof.Pre_finite_inputs
import Idealize.ShloMosaic.Lib.ReduceAll
import Idealize.ShloMosaic.Lib.Pipeline.Value

noncomputable section

namespace Cert.DstNonneg

open Idealize.ShloMosaic Cert.Pre_finite_inputs

/-- The scalar shape has one index. -/
instance : Subsingleton S_.Idx := ⟨fun _ _ => funext fun d => d.elim0⟩

/-- Under the precondition every entry of the third argument (the destination row numbers), read signed, is ≥ 0. -/
theorem dst_nonneg {F : FTy → Type} [FloatOps F] [Facts] (a0 : FVec F S100000x64 .f32) (a1 a2 : IVec S1250000 32)
    (a3 : FVec F S64x128 .f32) (a4 : FVec F S128 .f32)
    (h : fn (F := F) a0 a1 a2 a3 a4 = fun _ => 1#1) (e : S1250000.Idx) : 0 ≤ (a2 e).toInt := by
  have h0 := congrFun h (fun a => a.elim0)
  dsimp only [fn, fn_part1] at h0
  have h1 := (IntOp.andi_eq_one.1 h0).2
  have h2 := Host.reduce_andi_all _ _ _ _ _ h1 e
  have h3 : (0#32 : BitVec 32).toInt ≤ (a2 e).toInt := IntOp.cmpi_sge.1 h2
  exact h3

end Cert.DstNonneg

end
-- ==== Proof.lean ====
/- The proof of `Cert.Claim`: a graph layer — each node's row of x plus the rows of x gathered along the edges and
   added at the edges' destinations, then a linear map, a bias and a relu — computed by a host gather and scatter-add
   followed by a row-tiled kernel, against the plain formulation.
   Both programs end in relu(h · W + b); the kernel computes it block of 10000 rows by block (Proof/KernelBody.lean:
   one entry of a block; Proof/KernelWhole.lean: the ten blocks cover the result), the reference in one piece
   (Proof/RefValue.lean), and both are the function of Proof/DenseRelu.lean. They differ in how `h` is built: the
   kernel's program scatter-adds the gathered rows into the self term, by destination row numbers with negative ones
   wrapped around; the reference scatter-adds them into zeros by the row numbers as given and adds the self term
   afterwards. Under the precondition no destination row number is negative (Proof/DstNonneg.lean), the wrap-around
   does nothing, and a scatter-add into an array is that array plus the scatter-add into zeros
   (Proof/LibScatterInit.lean), so the two `h` are one array (Proof/Aggregate.lean). No entry needs to be finite for
   this. The three frames are the generated ones (the reference's is its run with the result dropped), and the
   idealization rewrote nothing, so `preserves` is trivial. -/
import proofs.«166384_j40346922779435_2_alg».proof.Defs
import proofs.«166384_j40346922779435_2_alg».proof.Proof.Gen.Kernel
import proofs.«166384_j40346922779435_2_alg».proof.Proof.Gen.Kernel.Skeleton
import proofs.«166384_j40346922779435_2_alg».proof.Proof.Gen.Kernel.Launch
import proofs.«166384_j40346922779435_2_alg».proof.Proof.Gen.Kernel.Points
import proofs.«166384_j40346922779435_2_alg».proof.Proof.Gen.Kernel.Frame
import proofs.«166384_j40346922779435_2_alg».proof.Proof.Gen.KernelIdeal
import proofs.«166384_j40346922779435_2_alg».proof.Proof.Gen.KernelIdeal.Skeleton
import proofs.«166384_j40346922779435_2_alg».proof.Proof.Gen.KernelIdeal.Launch
import proofs.«166384_j40346922779435_2_alg».proof.Proof.Gen.KernelIdeal.Points
import proofs.«166384_j40346922779435_2_alg».proof.Proof.Gen.KernelIdeal.Frame
import proofs.«166384_j40346922779435_2_alg».proof.Proof.Gen.ReferenceIdeal
import proofs.«166384_j40346922779435_2_alg».proof.Proof.Gen.KernelIdeal.Value
import proofs.«166384_j40346922779435_2_alg».proof.Proof.Gen.ReferenceIdeal.Run
import proofs.«166384_j40346922779435_2_alg».proof.Proof.Gen.ReferenceIdeal.Read
import proofs.«166384_j40346922779435_2_alg».proof.Proof.Gen.Pre_finite_inputs
import proofs.«166384_j40346922779435_2_alg».proof.Proof.KernelRun
import proofs.«166384_j40346922779435_2_alg».proof.Proof.RefValue
import proofs.«166384_j40346922779435_2_alg».proof.Proof.Aggregate
import proofs.«166384_j40346922779435_2_alg».proof.Proof.DstNonneg
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at relu(h · W + b) with the same `h`: the kernel's by its run read block by block, the
    reference's by its run read stage by stage, the two `h` equal because no destination row number is negative. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  have hd := Cert.DstNonneg.dst_nonneg (F := Ideal) _ _ _ _ _ (hpre c)
  rw [(hagree c).1, (hagree c).2.1, (hagree c).2.2.1, (hagree c).2.2.2.1, (hagree c).2.2.2.2,
    Cert.ReferenceIdeal.Read.val_main_v17_eq, Cert.ReferenceIdeal.RefValue.result_eq]
  show _ = Cert.KernelIdeal.Run.result m c
  unfold Cert.KernelIdeal.Run.result
  rw [Cert.Aggregate.aggregated_eq _ _ _ hd]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
